-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x262144 : Shape := ⟨2, ![512, 262144]⟩
abbrev S1x64x512x512 : Shape := ⟨4, ![1, 64, 512, 512]⟩
abbrev S_ : Shape := ⟨0, ![]⟩

class Facts : Prop where
  bcast_S_S512x262144 : S_.BroadcastsInDim S512x262144 (![] : Fin 0 → Fin S512x262144.rank)
  reducesTo_S512x262144_S_d0_1 : S512x262144.ReducesTo [0, 1] S_
  h_S_ : 0 < S_.numel
  bcast_S_S1x64x512x512 : S_.BroadcastsInDim S1x64x512x512 (![] : Fin 0 → Fin S1x64x512x512.rank)
  reducesTo_S1x64x512x512_S_d0_1_2_3 : S1x64x512x512.ReducesTo [0, 1, 2, 3] S_

variable [Facts]

def fn {F : FTy → Type} [FloatOps F] (main_arg0 : FVec F S512x262144 .f32) (main_arg1 : FVec F S1x64x512x512 .f32) : IVec S_ 1 :=
  let main_v0 : FVec F S512x262144 .f32 := Host.absf main_arg0
  let main_cst : FVec F S_ .f32 := constant S_ .f32 0x7F800000#32
  let main_v1 : FVec F S512x262144 .f32 := broadcastInDim S512x262144 ![] bcast_S_S512x262144 main_cst
  let main_v2 : IVec S512x262144 1 := cmpf .olt main_v0 main_v1
  let main_c : IVec S_ 1 := constantI S_ 1 1#1
  let main_v3 : IVec S_ 1 := (fun x v => Host.reduce IntOp.andi x v reducesTo_S512x262144_S_d0_1 h_S_) main_v2 main_c
  let main_v4 : FVec F S1x64x512x512 .f32 := Host.absf main_arg1
  let main_cst_0 : FVec F S_ .f32 := constant S_ .f32 0x7F800000#32
  let main_v5 : FVec F S1x64x512x512 .f32 := broadcastInDim S1x64x512x512 ![] bcast_S_S1x64x512x512 main_cst_0
  let main_v6 : IVec S1x64x512x512 1 := cmpf .olt main_v4 main_v5
  let main_c_1 : IVec S_ 1 := constantI S_ 1 1#1
  let main_v7 : IVec S_ 1 := (fun x v => Host.reduce IntOp.andi x v reducesTo_S1x64x512x512_S_d0_1_2_3 h_S_) main_v6 main_c_1
  let main_v8 : IVec S_ 1 := andi main_v3 main_v7
  main_v8
-- ==== Kernel.lean ====
abbrev S512x262144 : Shape := ⟨2, ![512, 262144]⟩
abbrev S1x64x512x512 : Shape := ⟨4, ![1, 64, 512, 512]⟩
abbrev S64x262144 : Shape := ⟨2, ![64, 262144]⟩
abbrev S64x512 : Shape := ⟨2, ![64, 512]⟩
abbrev S256x8192 : Shape := ⟨2, ![256, 8192]⟩
abbrev S64x8192 : Shape := ⟨2, ![64, 8192]⟩
abbrev S64x256 : Shape := ⟨2, ![64, 256]⟩
abbrev S512x64 : Shape := ⟨2, ![512, 64]⟩

abbrev nBuf : Space → Nat
  | .hbm => 5
  | .vmem => 7
  | .smem => 0
  | _ => 0

abbrev bufTy : (tb : Table) → Fin (tcTables nBuf tb) → BufTy
  | .hbm, ⟨0, _⟩ => ⟨S512x262144, .f32⟩
  | .hbm, ⟨1, _⟩ => ⟨S1x64x512x512, .f32⟩
  | .hbm, ⟨2, _⟩ => ⟨S64x262144, .f32⟩
  | .hbm, ⟨3, _⟩ => ⟨S64x512, .f32⟩
  | .hbm, ⟨4, _⟩ => ⟨S512x64, .f32⟩
  | .local _ .vmem, ⟨0, _⟩ => ⟨S256x8192, .f32⟩
  | .local _ .vmem, ⟨1, _⟩ => ⟨S256x8192, .f32⟩
  | .local _ .vmem, ⟨2, _⟩ => ⟨S64x8192, .f32⟩
  | .local _ .vmem, ⟨3, _⟩ => ⟨S64x8192, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | _, _ => ⟨S512x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v14 : BitVec 1 := Scalar.cmpi .eq arg1 c31_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x64x512x512_S64x262144 : S1x64x512x512.ShapeCasts S64x262144
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  transposes_S64x512_S512x64_1_0 : S64x512.Transposes [1, 0] S512x64
  dot_S64x8192_S256x8192_S64x256_1_1_0_0_n_n_wf : DotDims.WF S64x8192 S256x8192 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S512x262144.size a
  hwx0_0 : ∀ i : grid0.Coords, EltTy.bits .f32 = 32 ∨ (Rect.block (s := S512x262144) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x262144.size a
  hwx0_1 : ∀ i : grid0.Coords, EltTy.bits .f32 = 32 ∨ (Rect.block (s := S64x262144) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x512.size a
  hwx0_2 : ∀ i : grid0.Coords, EltTy.bits .f32 = 32 ∨ (Rect.block (s := S64x512) S64x256.size (cc0_transform_2 i) (hinb0_2 i)).WholeWords (EltTy.packing .f32)

variable [Facts₀]

def dot_S64x8192_S256x8192_S64x256_1_1_0_0_n_n : DotDims S64x8192 S256x8192 S64x256 where
  lhsContracting := [1]
  rhsContracting := [1]
  lhsNonContracting := [0]
  rhsNonContracting := [0]
  lhsBatch := []
  rhsBatch := []
  wf := dot_S64x8192_S256x8192_S64x256_1_1_0_0_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x262144 : Shape := ⟨2, ![512, 262144]⟩
abbrev S1x64x512x512 : Shape := ⟨4, ![1, 64, 512, 512]⟩
abbrev S64x262144 : Shape := ⟨2, ![64, 262144]⟩
abbrev S_ : Shape := ⟨0, ![]⟩
abbrev S64x512 : Shape := ⟨2, ![64, 512]⟩
abbrev S512x64 : Shape := ⟨2, ![512, 64]⟩
abbrev S64 : Shape := ⟨1, ![64]⟩
abbrev S64x1 : Shape := ⟨2, ![64, 1]⟩

abbrev nBuf : Space → Nat
  | .hbm => 13
  | .vmem => 0
  | .smem => 0
  | _ => 0

abbrev bufTy : (tb : Table) → Fin (tcTables nBuf tb) → BufTy
  | .hbm, ⟨0, _⟩ => ⟨S512x262144, .f32⟩
  | .hbm, ⟨1, _⟩ => ⟨S1x64x512x512, .f32⟩
  | .hbm, ⟨2, _⟩ => ⟨S64x262144, .f32⟩
  | .hbm, ⟨3, _⟩ => ⟨S_, .f32⟩
  | .hbm, ⟨4, _⟩ => ⟨S64x512, .f32⟩
  | .hbm, ⟨5, _⟩ => ⟨S512x64, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S64x512, .f32⟩
  | .hbm, ⟨10, _⟩ => ⟨S64x512, .f32⟩
  | .hbm, ⟨11, _⟩ => ⟨S512x64, .f32⟩
  | .hbm, ⟨12, _⟩ => ⟨S512x64, .f32⟩
  | _, _ => ⟨S512x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S1x64x512x512_S64x262144 : S1x64x512x512.ShapeCasts S64x262144
  bcast_S_S64x512 : S_.BroadcastsInDim S64x512 (![] : Fin 0 → Fin S64x512.rank)
  reducesTo_S64x262144_S64_d1 : S64x262144.ReducesTo [1] S64
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  transposes_S64x512_S512x64_1_0 : S64x512.Transposes [1, 0] S512x64
  dot_S512x262144_S64x262144_S512x64_1_1_0_0_n_n_wf : DotDims.WF S512x262144 S64x262144 S512x64 [1] [1] [0] [0] [] []

variable [Facts₀]

def dot_S512x262144_S64x262144_S512x64_1_1_0_0_n_n : DotDims S512x262144 S64x262144 S512x64 where
  lhsContracting := [1]
  rhsContracting := [1]
  lhsNonContracting := [0]
  rhsNonContracting := [0]
  lhsBatch := []
  rhsBatch := []
  wf := dot_S512x262144_S64x262144_S512x64_1_1_0_0_n_n_wf

class Facts : Prop extends Facts₀ where

variable [Facts]
-- ==== Proof.Pieces.lean ====
/-
  What one run of the kernel body leaves behind, as values.  The body keeps a 64 × 256 accumulator: at the first
  column block of a row block it overwrites the accumulator with zeros; at every column block it reads the accumulator
  `acc`, the 256 × 8192 block `x₀` of `x` and the 64 × 8192 block `x₁` of `a`, and writes back
  `acc + x₁ · x₀ᵀ` (the body's one arithmetic term, `k0_pay2 x₀ x₁ acc`); at the last column block it also copies the
  accumulator it has just written into the output block.  Hence, for any float instance:
    first column block   accumulator ← `k0_pay2 x₀ x₁ 0`   (the zeros it has just stored are what it reads back),
    a middle one         accumulator ← `k0_pay2 x₀ x₁ acc`,
    the last one         accumulator ← `k0_pay2 x₀ x₁ acc`, and the output block gets the same array.
  Each store covers the whole buffer and each load reads a whole buffer, so what is read back after a store is the
  stored array itself.
-/
import proofs.«176200_j14190571946190_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A middle column block: the accumulator `acc` becomes `acc + x₁ · x₀ᵀ`. -/
theorem scratch_middle (c : Dev nD) (i : grid0.Coords) (a2 : Memref sig .tc .vmem S256x8192 .f32) (h2 : a2.IsWhole)
    (a3 : Memref sig .tc .vmem S64x8192 .f32) (h3 : a3.IsWhole) (a4 : Memref sig .tc .vmem S64x256 .f32) (h4 : a4.IsWhole)
    (a5 : Memref sig .tc .vmem S64x256 .f32) (h5 : a5.IsWhole) (hc0 : ¬cond0_0 i) (hc1 : ¬cond0_1 i)
    (x0 : Vec F S256x8192 .f32) (x1 : Vec F S64x8192 .f32) (acc : Vec F S64x256 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero origin]
  simp only [View.readAt_eq_ld, h2.read_unread, h3.read_unread, h5.read_unread, View.ld_unit_zero (S := S256x8192) origin,
    View.ld_unit_zero (S := S64x8192) origin, View.ld_unit_zero (S := S64x256) origin]

/-- The last column block: the accumulator becomes `acc + x₁ · x₀ᵀ` just the same, -/
theorem scratch_last (c : Dev nD) (i : grid0.Coords) (a2 : Memref sig .tc .vmem S256x8192 .f32) (h2 : a2.IsWhole)
    (a3 : Memref sig .tc .vmem S64x8192 .f32) (h3 : a3.IsWhole) (a4 : Memref sig .tc .vmem S64x256 .f32) (h4 : a4.IsWhole)
    (a5 : Memref sig .tc .vmem S64x256 .f32) (h5 : a5.IsWhole) (hc0 : ¬cond0_0 i) (hc1 : cond0_1 i)
    (x0 : Vec F S256x8192 .f32) (x1 : Vec F S64x8192 .f32) (acc : Vec F S64x256 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero (S := S64x256) origin]
  simp only [View.readAt_eq_ld, h2.read_unread, h3.read_unread, h5.read_unread, View.ld_unit_zero (S := S256x8192) origin,
    View.ld_unit_zero (S := S64x8192) origin, View.ld_unit_zero (S := S64x256) origin]

/-- and the output block receives what the accumulator now holds: the value read back after the store is the stored one. -/
theorem output_last (c : Dev nD) (i : grid0.Coords) (a2 : Memref sig .tc .vmem S256x8192 .f32) (h2 : a2.IsWhole)
    (a3 : Memref sig .tc .vmem S64x8192 .f32) (h3 : a3.IsWhole) (a4 : Memref sig .tc .vmem S64x256 .f32) (h4 : a4.IsWhole)
    (a5 : Memref sig .tc .vmem S64x256 .f32) (h5 : a5.IsWhole) (hc0 : ¬cond0_0 i) (hc1 : cond0_1 i)
    (x0 : Vec F S256x8192 .f32) (x1 : Vec F S64x8192 .f32) (acc : Vec F S64x256 .f32) :
    out0_C_2 c i a2 h2 a3 h3 a4 h4 a5 h5 hc0 hc1 x0 x1 acc = k0_pay2 x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero (S := S64x256) origin, View.readCov_unit_zero (S := S64x256) _ origin]
  simp only [View.readAt_eq_ld, h2.read_unread, h3.read_unread, h5.read_unread, View.ld_unit_zero (S := S256x8192) origin,
    View.ld_unit_zero (S := S64x8192) origin, View.ld_unit_zero (S := S64x256) origin]

/-- The first column block: the zeros just stored are what the accumulation reads, so the accumulator becomes
    `0 + x₁ · x₀ᵀ` whatever it held before. -/
theorem scratch_first (c : Dev nD) (i : grid0.Coords) (a2 : Memref sig .tc .vmem S256x8192 .f32) (h2 : a2.IsWhole)
    (a3 : Memref sig .tc .vmem S64x8192 .f32) (h3 : a3.IsWhole) (a4 : Memref sig .tc .vmem S64x256 .f32) (h4 : a4.IsWhole)
    (a5 : Memref sig .tc .vmem S64x256 .f32) (h5 : a5.IsWhole) (hc0 : cond0_0 i) (hc1 : ¬cond0_1 i)
    (x0 : Vec F S256x8192 .f32) (x1 : Vec F S64x8192 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x256) origin, View.readCov_unit_zero (S := S64x256) _ origin]
  simp only [View.readAt_eq_ld, h2.read_unread, h3.read_unread, View.ld_unit_zero (S := S256x8192) origin,
    View.ld_unit_zero (S := S64x8192) origin]

end Cert.KernelIdeal.Pieces

end
-- ==== Proof.Spec.lean ====
/-
  The mathematics of the certificate, free of any program.

  Both programs compute the contraction  V[d, k] = ∑ₙ x[d, n] · a[k, n]  of a 512 × 262144 array `x` with a
  64 × 262144 array `a` along the long axis, over the extended reals.  The kernel cuts the long axis into 32 column
  blocks of 8192 lanes, forms each block's share  ∑ⱼ a[k, 8192·b + j] · x[d, 8192·b + j]  and adds the shares in block
  order onto a zero accumulator; the reference forms the whole sum at once, and subtracts from it a product with a zero
  array.  Three laws of the extended reals join the two: the ordered chain of shares is their sum, the sum of the
  shares is the whole sum (column `8192·b + j` ↔ the pair `(b, j)`, and a product commutes), and  y · 0 = 0,
  z − 0 = z  for EVERY extended real, so that the reference's subtracted term vanishes with no finiteness needed.
-/
import Idealize.ShloMosaic.PureOps.Ideal
import Idealize.ShloMosaic.Lib.ValueIdx

noncomputable section

open scoped BigOperators
open Idealize.ShloMosaic Idealize.ShloMosaic.ValueIdx

namespace Cert.Spec

/-- The 512 × 262144 array's contents, and the 64 × 262144 array's. -/
abbrev XArr : Type := (⟨2, ![512, 262144]⟩ : Shape).Idx → EReal
abbrev AArr : Type := (⟨2, ![64, 262144]⟩ : Shape).Idx → EReal

/-- Lane `j` of column block `b` is column `8192·b + j` of the long axis. -/
def col (b : ℕ) (hb : b < 32) (j : Fin 8192) : Fin 262144 :=
  ⟨8192 * b + j.val, by have := j.isLt; omega⟩

theorem col_val (b : ℕ) (hb : b < 32) (j : Fin 8192) : (col b hb j).val = 8192 * b + j.val := rfl

/-- Row `r` of row block `ib` is row `256·ib + r` of the 512. -/
def row (ib : ℕ) (hib : ib < 2) (r : Fin 256) : Fin 512 :=
  ⟨256 * ib + r.val, by have := r.isLt; omega⟩

theorem row_val (ib : ℕ) (hib : ib < 2) (r : Fin 256) : (row ib hib r).val = 256 * ib + r.val := rfl

/-- The columns are the pairs (block, lane). -/
def colEquiv : Fin 32 × Fin 8192 ≃ Fin 262144 where
  toFun p := col p.1.val p.1.isLt p.2
  invFun n := (⟨n.val / 8192, by have := n.isLt; omega⟩, ⟨n.val % 8192, Nat.mod_lt _ (by decide)⟩)
  left_inv p := by
    obtain ⟨b, j⟩ := p
    have hb := b.isLt
    have hj := j.isLt
    refine Prod.ext (Fin.ext ?_) (Fin.ext ?_)
    · show (8192 * b.val + j.val) / 8192 = b.val
      omega
    · show (8192 * b.val + j.val) % 8192 = j.val
      omega
  right_inv n := by
    refine Fin.ext ?_
    show 8192 * (n.val / 8192) + n.val % 8192 = n.val
    omega

variable (x : XArr) (a : AArr) (d : Fin 512) (k : Fin 64)

/-- The whole contraction at `(d, k)`. -/
def contraction : EReal := ∑ n : Fin 262144, x (ix2 d n) * a (ix2 k n)

/-- Column block `b`'s share of it (nothing beyond the 32 blocks). -/
def share (b : ℕ) : EReal :=
  if hb : b < 32 then ∑ j : Fin 8192, a (ix2 k (col b hb j)) * x (ix2 d (col b hb j)) else 0

theorem contraction_def : contraction x a d k = ∑ n : Fin 262144, x (ix2 d n) * a (ix2 k n) := rfl

theorem share_of_lt (b : ℕ) (hb : b < 32) :
    share x a d k b = ∑ j : Fin 8192, a (ix2 k (col b hb j)) * x (ix2 d (col b hb j)) := dif_pos hb

/-- The accumulator after column block `n`: the shares added in block order onto zero, `((0 + s₀) + s₁) + … + sₙ`. -/
def running : ℕ → EReal
  | 0 => 0 + share x a d k 0
  | n + 1 => running n + share x a d k (n + 1)

theorem running_zero : running x a d k 0 = 0 + share x a d k 0 := rfl
theorem running_succ (n : ℕ) : running x a d k (n + 1) = running x a d k n + share x a d k (n + 1) := rfl

/-- The ordered chain is the sum of the shares so far. -/
theorem running_eq (n : ℕ) : running x a d k n = ∑ b ∈ Finset.range (n + 1), share x a d k b := by
  induction n with
  | zero => rw [running, Finset.sum_range_one, zero_add]
  | succ n ih => rw [running, ih, Finset.sum_range_succ _ (n + 1)]

/-- The 32 shares add up to the whole contraction: a column is a (block, lane) pair, and each product commutes. -/
theorem sum_shares : ∑ b ∈ Finset.range 32, share x a d k b = contraction x a d k := by
  rw [Finset.sum_range]
  unfold contraction
  rw [← Equiv.sum_comp colEquiv (fun n => x (ix2 d n) * a (ix2 k n)), Fintype.sum_prod_type]
  refine Finset.sum_congr rfl fun b _ => ?_
  unfold share
  rw [dif_pos b.isLt]
  exact Finset.sum_congr rfl fun j _ => mul_comm _ _

/-- So after the last column block the accumulator holds the contraction. -/
theorem running_last : running x a d k 31 = contraction x a d k :=
  (running_eq x a d k 31).trans (sum_shares x a d k)

/-! Each of the three is a sum of up to 262144 terms; the equations above are what determines it. -/
attribute [irreducible] contraction share running

/-- The 512 × 64 result both programs end with: entry `(d, k)` is the contraction at `(d, k)`. -/
def product (x : XArr) (a : AArr) : (⟨2, ![512, 64]⟩ : Shape).Idx → EReal := fun i =>
  contraction x a ⟨(i 0).val, idx2_lt0 i⟩ ⟨(i 1).val, idx2_lt1 i⟩

theorem product_apply (x : XArr) (a : AArr) (d : Fin 512) (k : Fin 64) :
    product x a (ix2 d k) = contraction x a d k := rfl

/-- The reference subtracts `(0 + ∑ₙ a[k, n]) · 0`: that is `0` whatever the sum is, and subtracting `0` changes nothing. -/
theorem sub_mul_zero (z y : EReal) : z - y * 0 = z := by
  rw [mul_zero, sub_zero]

end Cert.Spec

end
-- ==== Proof.Payload.lean ====
/-
  The body's arithmetic at one entry, over the extended reals.  With `x₀` a 256 × 8192 block of `x`, `x₁` a
  64 × 8192 block of `a` and `acc` the 64 × 256 accumulator, the body's term is
      k0_pay2 x₀ x₁ acc = acc + x₁ · x₀ᵀ ,     entry (k, r):   acc[k, r] + ∑ⱼ x₁[k, j] · x₀[r, j] :
  the two roundings to bf16 on the way into the matrix unit are the identity on extended reals, the matrix product into
  a zero accumulator is the plain sum over the contracted lane axis `j` (both operands contract their axis 1), and the
  shape casts are between equal shapes.  The reset value `k0_pay1` is the zero array.  When `x₀` and `x₁` are the
  blocks of `x` and `a` at row block `ib` and column block `b`, that sum is column block `b`'s share of the
  contraction at `(256·ib + r, k)`.
-/
import proofs.«176200_j14190571946190_2_alg».proof.Proof.Gen.KernelIdeal.Skeleton
import proofs.«176200_j14190571946190_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Payload

open Cert.KernelIdeal Cert.KernelIdeal.Gen

/-! The matrix product's operand indices: at output entry `(k, r)` and contracted lane `q` the left operand is read
    at `(k, q)` and the right one at `(r, q)`. -/

theorem lhs_row (i : S64x256.Idx) (q : dot_S64x8192_S256x8192_S64x256_1_1_0_0_n_n.contr.Idx) :
    (dot_S64x8192_S256x8192_S64x256_1_1_0_0_n_n.lhsIdx i q 0).val = (i 0).val := by
  unfold DotDims.lhsIdx
  rw [dif_neg (show ¬(0 : Fin S64x8192.rank) ∈ dot_S64x8192_S256x8192_S64x256_1_1_0_0_n_n.lhsBatch by decide),
    dif_pos (show (0 : Fin S64x8192.rank) ∈ dot_S64x8192_S256x8192_S64x256_1_1_0_0_n_n.lhsNonContracting by decide)]
  rfl
theorem lhs_lane (i : S64x256.Idx) (q : dot_S64x8192_S256x8192_S64x256_1_1_0_0_n_n.contr.Idx) :
    (dot_S64x8192_S256x8192_S64x256_1_1_0_0_n_n.lhsIdx i q 1).val = (q ⟨0, by decide⟩).val :=
  dot_S64x8192_S256x8192_S64x256_1_1_0_0_n_n.lhsIdx_val_of_single rfl i q
theorem rhs_row (i : S64x256.Idx) (q : dot_S64x8192_S256x8192_S64x256_1_1_0_0_n_n.contr.Idx) :
    (dot_S64x8192_S256x8192_S64x256_1_1_0_0_n_n.rhsIdx i q 0).val = (i 1).val := by
  unfold DotDims.rhsIdx
  rw [dif_neg (show ¬(0 : Fin S256x8192.rank) ∈ dot_S64x8192_S256x8192_S64x256_1_1_0_0_n_n.rhsBatch by decide),
    dif_pos (show (0 : Fin S256x8192.rank) ∈ dot_S64x8192_S256x8192_S64x256_1_1_0_0_n_n.rhsNonContracting by decide)]
  rfl
theorem rhs_lane (i : S64x256.Idx) (q : dot_S64x8192_S256x8192_S64x256_1_1_0_0_n_n.contr.Idx) :
    (dot_S64x8192_S256x8192_S64x256_1_1_0_0_n_n.rhsIdx i q 1).val = (q ⟨0, by decide⟩).val :=
  dot_S64x8192_S256x8192_S64x256_1_1_0_0_n_n.rhsIdx_val_of_single rfl i q

/-- The accumulation at entry `(k, r)`: `acc[k, r] + ∑ⱼ x₁[k, j] · x₀[r, j]`. -/
theorem accumulate_apply (x0 : Vec Ideal S256x8192 .f32) (x1 : Vec Ideal S64x8192 .f32) (acc : Vec Ideal S64x256 .f32)
    (k : Fin 64) (r : Fin 256) :
    k0_pay2 (F := Ideal) x0 x1 acc (ix2 k r) = acc (ix2 k r) + ∑ j : Fin 8192, x1 (ix2 k j) * x0 (ix2 r j) := by
  unfold k0_pay2
  refine (congrFun (shapeCast_self _ _) _).trans ?_
  refine congrArg (acc (ix2 k r) + ·) ?_
  refine (Ideal.matmul_constant_zero_apply dot_S64x8192_S256x8192_S64x256_1_1_0_0_n_n none _ _ (ix2 k r)).trans ?_
  rw [← Equiv.sum_comp (contrEquiv1 dot_S64x8192_S256x8192_S64x256_1_1_0_0_n_n 8192 rfl rfl).symm]
  refine Finset.sum_congr rfl fun j _ => ?_
  have hj := contrEquiv1_symm_val dot_S64x8192_S256x8192_S64x256_1_1_0_0_n_n 8192 rfl rfl j
  have el : dot_S64x8192_S256x8192_S64x256_1_1_0_0_n_n.lhsIdx (ix2 k r)
      ((contrEquiv1 dot_S64x8192_S256x8192_S64x256_1_1_0_0_n_n 8192 rfl rfl).symm j) = ix2 k j :=
    funext fun a => Fin.ext (by
      match a with
      | ⟨0, _⟩ => exact lhs_row _ _
      | ⟨1, _⟩ => exact (lhs_lane _ _).trans hj)
  have er : dot_S64x8192_S256x8192_S64x256_1_1_0_0_n_n.rhsIdx (ix2 k r)
      ((contrEquiv1 dot_S64x8192_S256x8192_S64x256_1_1_0_0_n_n 8192 rfl rfl).symm j) = ix2 r j :=
    funext fun a => Fin.ext (by
      match a with
      | ⟨0, _⟩ => exact rhs_row _ _
      | ⟨1, _⟩ => exact (rhs_lane _ _).trans hj)
  rw [el, er]
  show (shapeCast S64x8192 x1 shapeCasts_S64x8192_S64x8192) (ix2 k j) * x0 (ix2 r j) = _
  rw [shapeCast_self]

/-- The reset value is the zero array. -/
theorem reset_apply (k : Fin 64) (r : Fin 256) : k0_pay1 (F := Ideal) (ix2 k r) = 0 := by
  unfold k0_pay1
  refine (congrFun (shapeCast_self _ _) _).trans ?_
  exact Ideal.ofBits_zero_f32

/-- One accumulation step on the blocks of `X` and `A` at row block `ib`, column block `b` adds, at entry `(k, r)`,
    column block `b`'s share of the contraction at `(256·ib + r, k)`. -/
theorem accumulate_share (X : Cert.Spec.XArr) (A : Cert.Spec.AArr) (x0 : Vec Ideal S256x8192 .f32)
    (x1 : Vec Ideal S64x8192 .f32) (acc : Vec Ideal S64x256 .f32) (ib : ℕ) (hib : ib < 2) (b : ℕ) (hb : b < 32)
    (hx0 : ∀ (r : Fin 256) (j : Fin 8192), x0 (ix2 r j) = X (ix2 (Cert.Spec.row ib hib r) (Cert.Spec.col b hb j)))
    (hx1 : ∀ (k : Fin 64) (j : Fin 8192), x1 (ix2 k j) = A (ix2 k (Cert.Spec.col b hb j)))
    (k : Fin 64) (r : Fin 256) :
    k0_pay2 (F := Ideal) x0 x1 acc (ix2 k r)
      = acc (ix2 k r) + Cert.Spec.share X A (Cert.Spec.row ib hib r) k b := by
  rw [accumulate_apply, Cert.Spec.share_of_lt X A (Cert.Spec.row ib hib r) k b hb]
  exact congrArg (acc (ix2 k r) + ·) (Finset.sum_congr rfl fun j _ => by rw [hx1, hx0])

end Cert.KernelIdeal.Payload

end
-- ==== Proof.Blocks.lean ====
/-
  Where the windows' blocks sit in their arrays.  The grid has 2 × 32 points; point `t` is row block `t / 32` and
  column block `t % 32`.  At point `t` the kernel is handed
    the 256 × 8192 block of `x` at block position (t / 32, t % 32):   entry (r, j) is `x[256·(t/32) + r, 8192·(t%32) + j]`,
    the  64 × 8192 block of `a` at block position (0, t % 32):        entry (k, j) is `a[k, 8192·(t%32) + j]`,
  and its 64 × 256 output block sits at block position (0, t / 32) of the 64 × 512 result.
  A block's entry is always at  block position × block extent + the coordinate inside the block,  axis by axis.
-/
import proofs.«176200_j14190571946190_2_alg».proof.Proof.Gen.KernelIdeal.Frame
import proofs.«176200_j14190571946190_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three index maps over the 64 grid points. -/
theorem position_x : ∀ t : Fin cfg0.N, win0_0.index t 0 = t.val / 32 ∧ win0_0.index t 1 = t.val % 32 :=
  (by decide +kernel : ∀ t : Fin grid0.N, win0_0.index t 0 = t.val / 32 ∧ win0_0.index t 1 = t.val % 32)
theorem position_a : ∀ t : Fin cfg0.N, win0_1.index t 0 = 0 ∧ win0_1.index t 1 = t.val % 32 :=
  (by decide +kernel : ∀ t : Fin grid0.N, win0_1.index t 0 = 0 ∧ win0_1.index t 1 = t.val % 32)
theorem position_out : ∀ t : Fin cfg0.N, win0_2.index t 0 = 0 ∧ win0_2.index t 1 = t.val / 32 :=
  (by decide +kernel : ∀ t : Fin grid0.N, win0_2.index t 0 = 0 ∧ win0_2.index t 1 = t.val / 32)

/-- The block of `x` at the point of row block `ib` and column block `b`. -/
theorem xblock_apply (c : Dev nD) (t : Fin cfg0.N) (ib b : ℕ) (hib : ib < 2) (hb : b < 32) (ht : t.val = 32 * ib + b)
    (r : Fin 256) (j : Fin 8192) :
    (iblk m c 0 t : Vec F S256x8192 .f32) (ix2 r j)
      = V m c main_arg0 (ix2 (Cert.Spec.row ib hib r) (Cert.Spec.col b hb j)) := by
  have hi := position_x t
  unfold iblk
  rw [View.read_apply]
  show V m c main_arg0 _ = V m c main_arg0 _
  refine congrArg (V m c main_arg0) (funext fun a => Fin.ext ?_)
  match a with
  | ⟨0, _⟩ =>
    show win0_0.index t 0 * 256 + 1 * r.val = 256 * ib + r.val
    rw [hi.1]; omega
  | ⟨1, _⟩ =>
    show win0_0.index t 1 * 8192 + 1 * j.val = 8192 * b + j.val
    rw [hi.2]; omega

/-- The block of `a` (the reshaped second argument) at a point of column block `b`. -/
theorem ablock_apply (c : Dev nD) (t : Fin cfg0.N) (ib b : ℕ) (hb : b < 32) (ht : t.val = 32 * ib + b)
    (k : Fin 64) (j : Fin 8192) :
    (iblk m c 1 t : Vec F S64x8192 .f32) (ix2 k j) = V m c main_v0 (ix2 k (Cert.Spec.col b hb j)) := by
  have hi := position_a t
  unfold iblk
  rw [View.read_apply]
  show V m c main_v0 _ = V m c main_v0 _
  refine congrArg (V m c main_v0) (funext fun a => Fin.ext ?_)
  match a with
  | ⟨0, _⟩ =>
    show win0_1.index t 0 * 64 + 1 * k.val = k.val
    rw [hi.1]; omega
  | ⟨1, _⟩ =>
    show win0_1.index t 1 * 8192 + 1 * j.val = 8192 * b + j.val
    rw [hi.2]; omega

end Cert.KernelIdeal.Blocks

end
-- ==== Proof.Accum.lean ====
/-
  The accumulator, point by point.  Fix a row block `ib`.  Over its 32 grid points (column blocks `b = 0 … 31`) the
  accumulator is reset and then receives one share per point, so after column block `b` its entry `(k, r)` is the
  ordered chain  ((0 + s₀) + s₁) + … + s_b  of the shares of the contraction at `(256·ib + r, k)`:
    b = 0        the zeros just stored plus the first share,
    b = b' + 1   what point `b'` left plus share `b' + 1`   (an induction over the points, never an enumeration).
  At the last column block the output block receives the same array, which is then the whole contraction.
-/
import proofs.«176200_j14190571946190_2_alg».proof.Proof.Pieces
import proofs.«176200_j14190571946190_2_alg».proof.Proof.Payload
import proofs.«176200_j14190571946190_2_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen

/-! ## What each kind of point leaves, for any float instance -/

section AnyInstance

variable {F : FTy → Type} [FloatOps F]
variable (m : (ℓ : Loc nD τ sig) → Buf (Elt F) ℓ)

/-- A first column block: the accumulator is the accumulation onto the zero array of the point's two blocks. -/
theorem scratch_at_first (c : Dev nD) (t : Fin cfg0.N) (h0 : t.val % 32 = 0) (h1 : ¬t.val % 32 = 31) :
    (outsAt0 m c t.val t.isLt).2 = k0_pay2 (iblk m c 0 t) (iblk m c 1 t) k0_pay1 := by
  rw [outsAt0_A m c t h0 h1]
  exact Pieces.scratch_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h))
    (iblk m c 0 t) (iblk m c 1 t)

/-- A middle column block: the accumulation onto what the point before left. -/
theorem scratch_at_middle (c : Dev nD) (t : Fin cfg0.N) (h0 : ¬t.val % 32 = 0) (h1 : ¬t.val % 32 = 31) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  exact Pieces.scratch_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h))
    (iblk m c 0 t) (iblk m c 1 t) (outsAt0 m c (t.val - 1) (Nat.lt_of_le_of_lt (Nat.sub_le _ _) t.isLt)).2

/-- The last column block: the same for the accumulator, -/
theorem scratch_at_last (c : Dev nD) (t : Fin cfg0.N) (h0 : ¬t.val % 32 = 0) (h1 : t.val % 32 = 31) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  exact Pieces.scratch_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1)
    (iblk m c 0 t) (iblk m c 1 t) (outsAt0 m c (t.val - 1) (Nat.lt_of_le_of_lt (Nat.sub_le _ _) t.isLt)).2

/-- and the output block holds the same array. -/
theorem output_at_last (c : Dev nD) (t : Fin cfg0.N) (h0 : ¬t.val % 32 = 0) (h1 : t.val % 32 = 31) :
    (outsAt0 m c t.val t.isLt).1
      = k0_pay2 (iblk m c 0 t) (iblk m c 1 t) (outsAt0 m c (t.val - 1) (Nat.lt_of_le_of_lt (Nat.sub_le _ _) t.isLt)).2 := by
  rw [outsAt0_C m c t h0 h1]
  exact Pieces.output_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1)
    (iblk m c 0 t) (iblk m c 1 t) (outsAt0 m c (t.val - 1) (Nat.lt_of_le_of_lt (Nat.sub_le _ _) t.isLt)).2

end AnyInstance

/-! ## Over the extended reals: the accumulator is the ordered chain of shares -/

section AtIdeal

variable (m : (ℓ : Loc nD τ sig) → Buf (Elt Ideal) ℓ)

/-- The two arrays the region reads: `x`, and `a` (the second argument reshaped to 64 × 262144 before the region). -/
abbrev X (c : Dev nD) : Cert.Spec.XArr := V m c main_arg0
abbrev A (c : Dev nD) : Cert.Spec.AArr := V m c main_v0

/-- After the point of row block `ib` and column block `b` the accumulator's entry `(k, r)` is the chain of the shares
    `0 … b` of the contraction at `(256·ib + r, k)`. -/
theorem scratch_running (c : Dev nD) : ∀ (n : ℕ) (h : n < cfg0.N) (ib b : ℕ) (hib : ib < 2) (hb : b < 32),
    n = 32 * ib + b → ∀ (k : Fin 64) (r : Fin 256),
      (outsAt0 m c n h).2 (ix2 k r) = Cert.Spec.running (X m c) (A m c) (Cert.Spec.row ib hib r) k b := by
  intro n
  induction n with
  | zero =>
    intro h ib b hib hb hn k r
    obtain rfl : ib = 0 := by omega
    obtain rfl : b = 0 := by omega
    refine (congrFun (scratch_at_first m c ⟨0, h⟩ rfl (by show ¬(0 % 32 = 31); decide)) (ix2 k r)).trans ?_
    refine (Payload.accumulate_share (X m c) (A m c) (iblk m c 0 ⟨0, h⟩) (iblk m c 1 ⟨0, h⟩) (k0_pay1 (F := Ideal)) 0 hib 0 hb
      (fun r j => Blocks.xblock_apply m c ⟨0, h⟩ 0 0 hib hb rfl r j)
      (fun k j => Blocks.ablock_apply m c ⟨0, h⟩ 0 0 hb rfl k j) k r).trans ?_
    rw [Payload.reset_apply, Cert.Spec.running_zero]
  | succ n ih =>
    intro h ib b hib hb hn k r
    have hN : n + 1 < 64 := lt_of_lt_of_eq h (show cfg0.N = 64 from N_0)
    cases b with
    | zero =>
      have h0 : (⟨n + 1, h⟩ : Fin cfg0.N).val % 32 = 0 := by show (n + 1) % 32 = 0; omega
      have h1 : ¬(⟨n + 1, h⟩ : Fin cfg0.N).val % 32 = 31 := by show ¬(n + 1) % 32 = 31; omega
      refine (congrFun (scratch_at_first m c ⟨n + 1, h⟩ h0 h1) (ix2 k r)).trans ?_
      refine (Payload.accumulate_share (X m c) (A m c) (iblk m c 0 ⟨n + 1, h⟩) (iblk m c 1 ⟨n + 1, h⟩) (k0_pay1 (F := Ideal)) ib hib 0 hb
        (fun r j => Blocks.xblock_apply m c ⟨n + 1, h⟩ ib 0 hib hb hn r j)
        (fun k j => Blocks.ablock_apply m c ⟨n + 1, h⟩ ib 0 hb hn k j) k r).trans ?_
      rw [Payload.reset_apply, Cert.Spec.running_zero]
    | succ b' =>
      have h0 : ¬(⟨n + 1, h⟩ : Fin cfg0.N).val % 32 = 0 := by show ¬(n + 1) % 32 = 0; omega
      have prev := ih (Nat.lt_of_succ_lt h) ib b' hib (by omega) (by omega) k r
      rw [Cert.Spec.running_succ]
      by_cases h1 : (⟨n + 1, h⟩ : Fin cfg0.N).val % 32 = 31
      · refine (congrFun (scratch_at_last m c ⟨n + 1, h⟩ h0 h1) (ix2 k r)).trans ?_
        refine (Payload.accumulate_share (X m c) (A m c) (iblk m c 0 ⟨n + 1, h⟩) (iblk m c 1 ⟨n + 1, h⟩)
          (outsAt0 m c n (Nat.lt_of_succ_lt h)).2 ib hib (b' + 1) hb
          (fun r j => Blocks.xblock_apply m c ⟨n + 1, h⟩ ib (b' + 1) hib hb hn r j)
          (fun k j => Blocks.ablock_apply m c ⟨n + 1, h⟩ ib (b' + 1) hb hn k j) k r).trans ?_
        exact congrArg (· + Cert.Spec.share (X m c) (A m c) (Cert.Spec.row ib hib r) k (b' + 1)) prev
      · refine (congrFun (scratch_at_middle m c ⟨n + 1, h⟩ h0 h1) (ix2 k r)).trans ?_
        refine (Payload.accumulate_share (X m c) (A m c) (iblk m c 0 ⟨n + 1, h⟩) (iblk m c 1 ⟨n + 1, h⟩)
          (outsAt0 m c n (Nat.lt_of_succ_lt h)).2 ib hib (b' + 1) hb
          (fun r j => Blocks.xblock_apply m c ⟨n + 1, h⟩ ib (b' + 1) hib hb hn r j)
          (fun k j => Blocks.ablock_apply m c ⟨n + 1, h⟩ ib (b' + 1) hb hn k j) k r).trans ?_
        exact congrArg (· + Cert.Spec.share (X m c) (A m c) (Cert.Spec.row ib hib r) k (b' + 1)) prev

/-- At the last column block of row block `ib` the output block's entry `(k, r)` is the whole contraction at
    `(256·ib + r, k)`: the chain of all 32 shares. -/
theorem output_contraction (c : Dev nD) (t : Fin cfg0.N) (ib : ℕ) (hib : ib < 2) (ht : t.val = 32 * ib + 31)
    (k : Fin 64) (r : Fin 256) :
    (outsAt0 m c t.val t.isLt).1 (ix2 k r) = Cert.Spec.contraction (X m c) (A m c) (Cert.Spec.row ib hib r) k := by
  have h0 : ¬t.val % 32 = 0 := by omega
  have h1 : t.val % 32 = 31 := by omega
  have hlt : t.val - 1 < cfg0.N := Nat.lt_of_le_of_lt (Nat.sub_le _ _) t.isLt
  have prev := scratch_running m c (t.val - 1) hlt ib 30 hib (by decide) (by omega) k r
  refine (congrFun (output_at_last m c t h0 h1) (ix2 k r)).trans ?_
  refine (Payload.accumulate_share (X m c) (A m c) (iblk m c 0 t) (iblk m c 1 t)
    (outsAt0 m c (t.val - 1) hlt).2 ib hib 31 (by decide)
    (fun r j => Blocks.xblock_apply m c t ib 31 hib (by decide) ht r j)
    (fun k j => Blocks.ablock_apply m c t ib 31 (by decide) ht k j) k r).trans ?_
  rw [← Cert.Spec.running_last, Cert.Spec.running_succ]
  exact congrArg (· + Cert.Spec.share (X m c) (A m c) (Cert.Spec.row ib hib r) k (30 + 1)) prev

end AtIdeal

end Cert.KernelIdeal.Accum

end
-- ==== Proof.Region.lean ====
/-
  From blocks to the array.  The 64 × 512 result of the region is written back twice, once per row block `ib`, at the
  last column block (grid point `32·ib + 31`): the 64 × 256 block at block position (0, ib), whose entry `(k, r)` is the
  contraction at `(256·ib + r, k)`.  The two blocks tile the array (column `d` lies in block `d / 256`), so the array
  ends holding, at `(k, d)`, the contraction at `(d, k)`: the transposed product.
-/
import proofs.«176200_j14190571946190_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ)

/-- The region's result: entry `(k, d)` of the 64 × 512 array is the contraction at `(d, k)`. -/
def result (c : Dev nD) : Buf (Elt Ideal) ((c : Thread nD τ).loc main_v1) := fun (i : S64x512.Idx) =>
  Cert.Spec.contraction (Accum.X m c) (Accum.A m c) ⟨(i 1).val, idx2_lt1 i⟩ ⟨(i 0).val, idx2_lt0 i⟩

/-- What a write-back writes is the block of `result` at its position. -/
theorem flushed_eq (c : Dev nD) (t : Fin cfg0.N) (hf : (cfg0.win 2).flush t = true) :
    (dats m 0 c).flushed 2 t = ((cfg0.win 2).blk t).view.read (Elt Ideal) (result m c) := by
  have hN : t.val < 64 := lt_of_lt_of_eq t.isLt (show cfg0.N = 64 from N_0)
  have h31 : t.val % 32 = 31 := (flush0_2 t).mp hf
  have hp := Blocks.position_out t
  have key : ∀ (k : Fin 64) (r : Fin 256), (outsAt0 m c t.val t.isLt).1 (ix2 k r)
      = Cert.Spec.contraction (Accum.X m c) (Accum.A m c) (Cert.Spec.row (t.val / 32) (by omega) r) k :=
    fun k r => Accum.output_contraction m c t (t.val / 32) (by omega) (by omega) k r
  show (cfg0.win 2).cut (grid0.coords t) ((dats m 0 c).after 2 t) = _
  rw [after0_2]
  generalize (outsAt0 m c t.val t.isLt).1 = O at key ⊢
  refine funext fun (y : S64x256.Idx) => ?_
  obtain ⟨k, r, rfl⟩ : ∃ (k : Fin 64) (r : Fin 256), y = ix2 k r := ⟨y 0, y 1, eq_ix2 y⟩
  rw [View.read_apply, cast_eq]
  show O (ix2 k r) = _
  rw [key k r]
  unfold result
  refine congrArg₂ (Cert.Spec.contraction (Accum.X m c) (Accum.A m c)) (Fin.ext ?_) (Fin.ext ?_)
  · show 256 * (t.val / 32) + r.val = win0_2.index t 1 * 256 + 1 * r.val
    rw [hp.2]; omega
  · show k.val = win0_2.index t 0 * 64 + 1 * k.val
    rw [hp.1]; omega

/-- Every entry of the 64 × 512 array lies in one of the two written blocks: column `d` in block `d / 256`. -/
theorem cover (i : S64x512.Idx) :
    ∃ t : Fin cfg0.N, (cfg0.win 2).flush t = true ∧ i ∈ ((cfg0.win 2).blk t).view.set := by
  have hN : cfg0.N = 64 := N_0
  have h0 : (i 0).val < 64 := idx2_lt0 i
  have h1 : (i 1).val < 512 := idx2_lt1 i
  have hlt : 32 * ((i 1).val / 256) + 31 < cfg0.N := by rw [hN]; omega
  have hp := Blocks.position_out ⟨32 * ((i 1).val / 256) + 31, hlt⟩
  refine ⟨⟨32 * ((i 1).val / 256) + 31, hlt⟩,
    (flush0_2 _).mpr (by show (32 * ((i 1).val / 256) + 31) % 32 = 31; omega), ?_⟩
  show i ∈ ((View.whole main_v1).slice (win0_2.rect ⟨32 * ((i 1).val / 256) + 31, hlt⟩)).set
  rw [View.set_slice_whole, Rect.mem_set_unit]
  intro a
  match a with
  | ⟨0, _⟩ =>
    show win0_2.index ⟨32 * ((i 1).val / 256) + 31, hlt⟩ 0 * 64 ≤ (i 0).val
      ∧ (i 0).val < win0_2.index ⟨32 * ((i 1).val / 256) + 31, hlt⟩ 0 * 64 + 64
    rw [hp.1]; omega
  | ⟨1, _⟩ =>
    show win0_2.index ⟨32 * ((i 1).val / 256) + 31, hlt⟩ 1 * 256 ≤ (i 1).val
      ∧ (i 1).val < win0_2.index ⟨32 * ((i 1).val / 256) + 31, hlt⟩ 1 * 256 + 256
    rw [hp.2]
    show (32 * ((i 1).val / 256) + 31) / 32 * 256 ≤ (i 1).val ∧ (i 1).val < (32 * ((i 1).val / 256) + 31) / 32 * 256 + 256
    omega

/-- So the region leaves the 64 × 512 array at `result`. -/
theorem final (c : Dev nD) : (dats m 0 c).arrAt 2 cfg0.N = result m c :=
  (dats m 0 c).arrAt_eq_of_cover 2 (result m c) (flushed_eq m c) cover

end Cert.KernelIdeal.Region

end
-- ==== Proof.Whole.lean ====
/-
  The whole idealized kernel program.  Before the region the second argument is reshaped to the 64 × 262144 array
  `a`; the region leaves the 64 × 512 array whose entry `(k, d)` is the contraction at `(d, k)`; after the region
  that array is transposed.  So the program's 512 × 64 result is the product: entry `(d, k)` the contraction at
  `(d, k)` of `x` with the reshaped second argument, and both arguments end as they began.
-/
import proofs.«176200_j14190571946190_2_alg».proof.Proof.Region
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The region reads `x` as launched, -/
theorem x_eq (c : Dev nD) : Accum.X m c = m ((c : Thread nD τ).loc main_arg0) := V_main_arg0 m c

/-- and `a` is the reshape of the second argument. -/
theorem a_eq (c : Dev nD) :
    Accum.A m c = shapeCast S64x262144 (m ((c : Thread nD τ).loc main_arg1)) shapeCasts_S1x64x512x512_S64x262144 := by
  show StableHlo.after hostOps0 (fun b => m (c, b)) (Proc.devRef .tc main_v0) = _
  after_results
  rfl

/-- The transpose after the region turns the region's array into the product. -/
theorem tail_eq (c : Dev nD) :
    Pipeline.afterTail₀ cfgs (dats m) 0 (V0 m) [hostOps1] c main_v2
      = Cert.Spec.product (m ((c : Thread nD τ).loc main_arg0))
          (shapeCast S64x262144 (m ((c : Thread nD τ).loc main_arg1)) shapeCasts_S1x64x512x512_S64x262144) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = Region.result m c :=
    (Pipeline.withArrays_arr spec0 launch0.win.arr_inj c _ _ 2).trans (Region.final m c)
  rw [hw]
  funext i
  obtain ⟨d, k, rfl⟩ : ∃ (d : Fin 512) (k : Fin 64), i = ix2 d k := ⟨i 0, i 1, eq_ix2 i⟩
  refine (transpose_apply [1, 0] (Region.result m c) transposes_S64x512_S512x64_1_0 (ix2 d k) (ix2 k d)
    (fun b => match b with | ⟨0, _⟩ => rfl | ⟨1, _⟩ => rfl)).trans ?_
  rw [Cert.Spec.product_apply, ← x_eq m c, ← a_eq m c]
  rfl

/-- Every weakly fair execution of the idealized kernel program terminates with its result at the product and its
    arguments unchanged. -/
theorem run : θ_run defs (onTc (τ := τ) (main (F := Ideal))) ⟨m, fun _ => 0, ρ⟩ fun r => ∀ c : Dev nD,
      r.2.mem ((c.tc : Thread nD τ).loc main_v2)
        = Cert.Spec.product (m ((c.tc : Thread nD τ).loc main_arg0))
            (shapeCast S64x262144 (m ((c.tc : Thread nD τ).loc main_arg1)) shapeCasts_S1x64x512x512_S64x262144)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference, index by index.  With `a` the second argument reshaped to 64 × 262144, the reference computes
      out[d, k] = (∑ₙ x[d, n] · a[k, n])  −  ((0 + ∑ₙ a[k, n]) · 0) :
  a matrix product contracting the long axis, minus the transposed product of the row sums of `a` with a zero array
  (the cluster centres, all zero).  Over the extended reals the subtracted term is `y · 0 = 0` for every `y` — a row sum
  that is infinite included — and `z − 0 = z`, so the result is the contraction itself.
-/
import proofs.«176200_j14190571946190_2_alg».proof.Proof.Gen.ReferenceIdeal.Read
import proofs.«176200_j14190571946190_2_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Read

/-- The reference's result, as a function of `x` and of the second argument (`a` is its reshape: the same array on both
    sides, whatever the reshape does), is the product. -/
theorem result_eq (x0 : (⟨S512x262144, .f32⟩ : BufTy).Contents (Elt Ideal))
    (x1 : (⟨S1x64x512x512, .f32⟩ : BufTy).Contents (Elt Ideal)) :
    val_main_v8 (F := Ideal) x0 x1 = Cert.Spec.product x0 (val_main_v0 (F := Ideal) x1) := by
  funext i
  obtain ⟨d, k, rfl⟩ : ∃ (d : Fin 512) (k : Fin 64), i = ix2 d k := ⟨i 0, i 1, eq_ix2 i⟩
  rw [Cert.Spec.product_apply, val_main_v8_apply, val_main_v2_apply, val_main_v7_apply, val_main_v6_apply,
    val_main_v1_apply, val_main_cst_apply]
  generalize val_main_v0 (F := Ideal) x1 = a
  generalize val_main_v5 (F := Ideal) x1 (idx_main_v7 (ix2 d k)) = y
  rw [Ideal.subf_def, Ideal.mulf_def, Ideal.ofBits_def, Ideal.ofBits_zero_f32, Cert.Spec.sub_mul_zero,
    Cert.Spec.contraction_def]
  refine Finset.sum_congr rfl fun n _ => ?_
  have el : lidx_main_v2 (ix2 d k) n = ix2 d n :=
    funext fun b => Fin.ext (by match b with | ⟨0, _⟩ => rfl | ⟨1, _⟩ => rfl)
  have er : ridx_main_v2 (ix2 d k) n = ix2 k n :=
    funext fun b => Fin.ext (by match b with | ⟨0, _⟩ => rfl | ⟨1, _⟩ => rfl)
  rw [el, er]

end Cert.ReferenceIdeal.RefValue

end
-- ==== Proof.lean ====
/-
  The kernel computes, for a 512 × 262144 array `x` and a 1 × 64 × 512 × 512 array reshaped to the 64 × 262144 array `a`,
  the 512 × 64 product  V[d, k] = ∑ₙ x[d, n] · a[k, n] :  a 2 × 32 grid of (256-row block of `x`) × (8192-column block),
  each point adding its block product `a_blk · x_blkᵀ` into a 64 × 256 accumulator that is zeroed at the first column
  block and copied out at the last, the 64 × 512 result transposed afterwards.  The reference computes the same product
  in one contraction and subtracts the (transposed) product of the row sums of `a` with an all-zero array of centres.

  Over the extended reals the two agree for EVERY input: the roundings to bf16 are the identity; the ordered chain of
  the 32 block shares is their sum, and the shares' sum is the whole contraction (addition of extended reals is
  associative and commutative, multiplication commutative); and the reference's subtracted term is `y · 0 = 0`,
  `z − 0 = z`, whatever `y` is.  Finiteness of the inputs is therefore never used.

  The three frames are the programs' runs with the results forgotten; the idealization rewrote nothing, so that
  conjunct is trivial; the value conjunct puts the kernel program's run (the accumulator followed point by point, the
  two written blocks tiling the region's array, the transpose) beside the reference's run, both ending at the product.
-/
import proofs.«176200_j14190571946190_2_alg».proof.Defs
import proofs.«176200_j14190571946190_2_alg».proof.Proof.Gen.Kernel
import proofs.«176200_j14190571946190_2_alg».proof.Proof.Gen.Kernel.Skeleton
import proofs.«176200_j14190571946190_2_alg».proof.Proof.Gen.Kernel.Launch
import proofs.«176200_j14190571946190_2_alg».proof.Proof.Gen.Kernel.Points
import proofs.«176200_j14190571946190_2_alg».proof.Proof.Gen.Kernel.Frame
import proofs.«176200_j14190571946190_2_alg».proof.Proof.Gen.KernelIdeal
import proofs.«176200_j14190571946190_2_alg».proof.Proof.Gen.KernelIdeal.Skeleton
import proofs.«176200_j14190571946190_2_alg».proof.Proof.Gen.KernelIdeal.Launch
import proofs.«176200_j14190571946190_2_alg».proof.Proof.Gen.KernelIdeal.Points
import proofs.«176200_j14190571946190_2_alg».proof.Proof.Gen.KernelIdeal.Frame
import proofs.«176200_j14190571946190_2_alg».proof.Proof.Gen.ReferenceIdeal
import proofs.«176200_j14190571946190_2_alg».proof.Proof.Gen.Pre_finite_inputs
import proofs.«176200_j14190571946190_2_alg».proof.Proof.Gen.ReferenceIdeal.Run
import proofs.«176200_j14190571946190_2_alg».proof.Proof.Gen.ReferenceIdeal.Read
import proofs.«176200_j14190571946190_2_alg».proof.Proof.Whole
import proofs.«176200_j14190571946190_2_alg».proof.Proof.RefValue
import Idealize.ShloMosaic.Adequacy
import Idealize.ShloMosaic.Init

noncomputable section

namespace Cert.Proof

open Idealize.ShloMosaic Idealize.SL.Sem

/-- The kernel program as printed runs and leaves its arguments unchanged; -/
theorem frame_kernel : Cert.frame_Kernel := fun m ρ _ => Cert.Kernel.Gen.frame m ρ

/-- so does its idealization; -/
theorem frame_kernel_ideal : Cert.frame_KernelIdeal := fun m ρ _ => Cert.KernelIdeal.Gen.frame m ρ

/-- and so does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the product of `x` with the reshaped second argument. -/
theorem algebraic : Cert.algebraic_KernelIdeal_ReferenceIdeal := by
  intro m ρ m' ρ' _ hagree
  refine ⟨fun c => Cert.Spec.product (m ((c.tc : Thread Cert.KernelIdeal.nD Cert.KernelIdeal.τ).loc Cert.KernelIdeal.main_arg0))
      (shapeCast Cert.KernelIdeal.S64x262144 (m ((c.tc : Thread Cert.KernelIdeal.nD Cert.KernelIdeal.τ).loc Cert.KernelIdeal.main_arg1))
        Cert.KernelIdeal.Facts₀.shapeCasts_S1x64x512x512_S64x262144),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
